-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S2048x4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  main_v23

def fn {F : FTy → Type} [FloatOps F] (main_arg0 : FVec F S2048x4096 .f32) (main_arg1 : FVec F S4096x4096 .f32) (main_arg2 : FVec F S4096 .f32) (main_arg3 : FVec F S2048x4096 .f32) (main_arg4 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_v13 main_v16
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1024x2048 : Shape := ⟨2, ![1024, 2048]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S2048x4096, .f32⟩
  | .hbm, ⟨4, _⟩ => ⟨S2048x4096, .f32⟩
  | .hbm, ⟨5, _⟩ => ⟨S1x4096, .f32⟩
  | .hbm, ⟨6, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  natLt_1_32 : 1 < 32
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x4096.size a
  hwx0_0 : ∀ i : grid0.Coords, EltTy.bits .f32 = 32 ∨ (Rect.block (s := S2048x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .f32 = 32 ∨ (Rect.block (s := S4096x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S2048x4096.size a
  hwx0_3 : ∀ i : grid0.Coords, EltTy.bits .f32 = 32 ∨ (Rect.block (s := S2048x4096) S1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S2048x4096.size a
  hwx0_4 : ∀ i : grid0.Coords, EltTy.bits .f32 = 32 ∨ (Rect.block (s := S2048x4096) S1024x2048.size (cc0_transform_4 i) (hinb0_4 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S1x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .i1⟩
  | .hbm, ⟨16, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.SpikeSpec.lean ====
/-
  One step of a leaky integrate-and-fire layer, as a function of its argument arrays over the extended reals.

  The membrane potential of neuron `q` for sample `r` is `(½ · u0[r, q] + Σ_k x[r, k] · W[k, q]) + b[q]`; the layer
  emits `1` where the potential reaches the firing level `1` and `0` elsewhere. Two facts used on the way from a
  blocked evaluation to this one are proved here over abstract data: a sum over 4096 terms is the sum of its four
  consecutive runs of 1024 terms (addition on the extended reals is commutative and associative, so no finiteness
  is needed), and a one-bit comparison result widened to 32 bits and read as a signed integer is the same number as
  the bit read unsigned (both are `0` or `1`).
-/
import Idealize.ShloMosaic.PureOps.Ideal
import Idealize.ShloMosaic.Lib.ValueIdx

noncomputable section

namespace Cert.Spike

open Idealize.ShloMosaic Idealize.ShloMosaic.ValueIdx

/-- The leak factor `½` and the firing level `1`, as the words both programs spell them. -/
abbrev leak : EReal := Ideal.ofBits .f32 0x3F000000#32
abbrev level : EReal := Ideal.ofBits .f32 0x3F800000#32

/-- The threshold: `1` where the potential `u` is at least the firing level, `0` elsewhere (an infinite potential
    is compared like any other extended real). -/
def fire (u : EReal) : EReal :=
  FloatOps.uitofp (F := Ideal) .f32 (FloatOps.cmpf (F := Ideal) (φ := .f32) .oge u level)

/-- The synaptic drive of neuron `q` for sample `r`: row `r` of `x` against column `q` of `W`. -/
def drive (x : (⟨2, ![2048, 4096]⟩ : Shape).Idx → EReal) (W : (⟨2, ![4096, 4096]⟩ : Shape).Idx → EReal)
    (r : Fin 2048) (q : Fin 4096) : EReal :=
  ∑ k : Fin 4096, x (ix2 r k) * W (ix2 k q)

/-- The spike of neuron `q` for sample `r`. -/
def spikeAt (x : (⟨2, ![2048, 4096]⟩ : Shape).Idx → EReal) (W : (⟨2, ![4096, 4096]⟩ : Shape).Idx → EReal)
    (b : (⟨1, ![4096]⟩ : Shape).Idx → EReal) (u0 : (⟨2, ![2048, 4096]⟩ : Shape).Idx → EReal)
    (r : Fin 2048) (q : Fin 4096) : EReal :=
  fire ((leak * u0 (ix2 r q) + drive x W r q) + b (ix1 q))

/-- The layer's output array. -/
def spike (x : (⟨2, ![2048, 4096]⟩ : Shape).Idx → EReal) (W : (⟨2, ![4096, 4096]⟩ : Shape).Idx → EReal)
    (b : (⟨1, ![4096]⟩ : Shape).Idx → EReal) (u0 : (⟨2, ![2048, 4096]⟩ : Shape).Idx → EReal) :
    (⟨2, ![2048, 4096]⟩ : Shape).Idx → EReal :=
  fun i => spikeAt x W b u0 (i 0) (i 1)

/-- A sum of 4096 terms is the sum, over its four consecutive runs, of each run's 1024 terms. -/
theorem sum_runs {β : Type*} [AddCommMonoid β] (f : ℕ → β) :
    ∑ k : Fin 4096, f k.val = ∑ s ∈ Finset.range 4, ∑ j : Fin 1024, f (1024 * s + j.val) := by
  rw [← Fin.sum_univ_eq_sum_range (fun s => ∑ j : Fin 1024, f (1024 * s + j.val)) 4]
  rw [← Equiv.sum_comp (finProdFinEquiv : Fin 4 × Fin 1024 ≃ Fin (4 * 1024)) (fun k => f k.val), Fintype.sum_prod_type]
  refine Finset.sum_congr rfl fun s _ => Finset.sum_congr rfl fun j _ => ?_
  rw [finProdFinEquiv_apply_val, Nat.add_comm]

/-- Term `n` of the drive's sum (zero past the last one, so that it is a function of every natural number). -/
def term (x : (⟨2, ![2048, 4096]⟩ : Shape).Idx → EReal) (W : (⟨2, ![4096, 4096]⟩ : Shape).Idx → EReal)
    (r : Fin 2048) (q : Fin 4096) (n : ℕ) : EReal :=
  if h : n < 4096 then x (ix2 r ⟨n, h⟩) * W (ix2 ⟨n, h⟩ q) else 0

/-- The drive, run by run: four runs of 1024 consecutive terms. -/
theorem drive_runs (x : (⟨2, ![2048, 4096]⟩ : Shape).Idx → EReal) (W : (⟨2, ![4096, 4096]⟩ : Shape).Idx → EReal)
    (r : Fin 2048) (q : Fin 4096) :
    drive x W r q = ∑ s ∈ Finset.range 4, ∑ j : Fin 1024, term x W r q (1024 * s + j.val) := by
  rw [← sum_runs (term x W r q)]
  unfold drive
  refine Finset.sum_congr rfl fun k _ => ?_
  unfold term
  rw [dif_pos k.isLt]

/-- A comparison's bit, widened to 32 bits and read signed, is the bit read unsigned. -/
theorem bit_signed_eq_unsigned (v : BitVec 1) :
    FloatOps.sitofp (F := Ideal) .f32 (v.setWidth 32) = FloatOps.uitofp (F := Ideal) .f32 v := by
  have h : (v.setWidth 32).toInt = (v.toNat : ℤ) := by
    rcases BitVec.eq_zero_or_eq_one v with h | h <;> subst h <;> decide
  show (((v.setWidth 32).toInt : ℝ) : EReal) = ((v.toNat : ℝ) : EReal)
  rw [h, Int.cast_natCast]

end Cert.Spike

end
-- ==== Proof.RefSpike.lean ====
/-
  The reference computes the layer's specification: read one operation at a time at an output index `(r, q)`, its
  result is the threshold applied to `(½ · u0[r, q] + Σ_k x[r, k] · W[k, q]) + b[q]` — the constants' broadcasts read
  the one constant, the bias's two broadcasts read `b[q]`, and the contraction's operand indices are `(r, k)` and
  `(k, q)`.
-/
import proofs.«100028_j81106162418163_2_alg».proof.Proof.Gen.ReferenceIdeal.Read
import proofs.«100028_j81106162418163_2_alg».proof.Proof.SpikeSpec

noncomputable section

namespace Cert.ReferenceIdeal.RefValue

open Cert.ReferenceIdeal Cert.ReferenceIdeal.Read Idealize.ShloMosaic Idealize.ShloMosaic.ValueIdx

/-- The reference's result array is the layer's output array. -/
theorem result_eq (x0 : (⟨S2048x4096, .f32⟩ : BufTy).Contents (Elt Ideal)) (x1 : (⟨S4096x4096, .f32⟩ : BufTy).Contents (Elt Ideal))
    (x2 : (⟨S4096, .f32⟩ : BufTy).Contents (Elt Ideal)) (x3 : (⟨S2048x4096, .f32⟩ : BufTy).Contents (Elt Ideal)) :
    val_main_v9 (F := Ideal) x0 x1 x2 x3 = Cert.Spike.spike x0 x1 x2 x3 := by
  funext i
  obtain ⟨r, q, rfl⟩ : ∃ (r : Fin 2048) (q : Fin 4096), i = ix2 r q := ⟨i 0, i 1, eq_ix2 i⟩
  have el : ∀ k : Fin 4096, lidx_main_v2 (ix2 r q) k = ix2 r k := fun k =>
    funext fun a => Fin.ext (by match a with | ⟨0, _⟩ => rfl | ⟨1, _⟩ => rfl)
  have er : ∀ k : Fin 4096, ridx_main_v2 (ix2 r q) k = ix2 k q := fun k =>
    funext fun a => Fin.ext (by match a with | ⟨0, _⟩ => rfl | ⟨1, _⟩ => rfl)
  have eb : idx_main_v4 (idx_main_v5 (ix2 r q)) = ix1 q :=
    funext fun a => Fin.ext (by match a with | ⟨0, _⟩ => rfl)
  rw [val_main_v9_apply, val_main_v8_apply, val_main_v6_apply, val_main_v7_apply, val_main_cst_0_apply, val_main_v3_apply,
    val_main_v5_apply, val_main_v4_apply, val_main_v1_apply, val_main_v0_apply, val_main_cst_apply, val_main_v2_apply]
  simp only [el, er, eb]
  rfl

end Cert.ReferenceIdeal.RefValue

end
-- ==== Proof.KernelPieces.lean ====
/-
  What one grid step of the kernel leaves behind, as values of what it loaded.

  The kernel keeps a running partial product in a scratch block. At every step it replaces the scratch contents
  `acc` by `acc + x_blk · w_blk` (the block product into a zero accumulator, then one addition); at the first step
  of a reduction run the scratch is first overwritten with zeros, so that step leaves `0 + x_blk · w_blk`; at the
  last step of a run the output block is additionally written with the thresholded potential computed from the
  scratch AS JUST UPDATED, the membrane block and the bias block. Each store covers its whole buffer, so what a
  buffer holds after the step is the payload of the last store into it, and a load that follows a store reads that
  store's payload.
-/
import proofs.«100028_j81106162418163_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A first step of a run: the scratch is zeroed, read back, and left at `0 + x_blk · w_blk`. -/
theorem scratch_first (c : Dev nD) (i : grid0.Coords) (a3 : Memref sig .tc .vmem S1024x1024 .f32) (h3 : a3.IsWhole) (a4 : Memref sig .tc .vmem S1024x2048 .f32) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (a8 : Memref sig .tc .vmem S1024x2048 .f32) (h8 : a8.IsWhole) (hc0 : cond0_0 i) (hc1 : ¬cond0_1 i)
    (x0 : Vec F S1024x1024 .f32) (x1 : Vec F S1024x2048 .f32) (x2 : Vec F S1x2048 .f32) (x3 : Vec F S1024x2048 .f32) :
    sout0_A_0 c i a3 h3 a4 h4 a5 h5 a6 h6 a7 h7 a8 h8 hc0 hc1 x0 x1 x2 x3 = k0_pay2 (k0_pay1 (F := F)) x0 x1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x2048) hz,
    View.ld_unit_zero (S := S1024x1024) hz]

/-- A middle step of a run: the scratch holding `acc` is left at `acc + x_blk · w_blk`. -/
theorem scratch_middle (c : Dev nD) (i : grid0.Coords) (a3 : Memref sig .tc .vmem S1024x1024 .f32) (h3 : a3.IsWhole) (a4 : Memref sig .tc .vmem S1024x2048 .f32) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (a8 : Memref sig .tc .vmem S1024x2048 .f32) (h8 : a8.IsWhole) (hc0 : ¬cond0_0 i) (hc1 : ¬cond0_1 i)
    (x0 : Vec F S1024x1024 .f32) (x1 : Vec F S1024x2048 .f32) (x2 : Vec F S1x2048 .f32) (x3 : Vec F S1024x2048 .f32) (xs0 : Vec F S1024x2048 .f32) :
    sout0_B_0 c i a3 h3 a4 h4 a5 h5 a6 h6 a7 h7 a8 h8 hc0 hc1 x0 x1 x2 x3 xs0 = k0_pay2 xs0 x0 x1 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h8.read_unread, View.ld_unit_zero (S := S1024x2048) hz,
    View.ld_unit_zero (S := S1024x1024) hz]

/-- A last step of a run updates the scratch like a middle step; -/
theorem scratch_last (c : Dev nD) (i : grid0.Coords) (a3 : Memref sig .tc .vmem S1024x1024 .f32) (h3 : a3.IsWhole) (a4 : Memref sig .tc .vmem S1024x2048 .f32) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (a8 : Memref sig .tc .vmem S1024x2048 .f32) (h8 : a8.IsWhole) (hc0 : ¬cond0_0 i) (hc1 : cond0_1 i)
    (x0 : Vec F S1024x1024 .f32) (x1 : Vec F S1024x2048 .f32) (x2 : Vec F S1x2048 .f32) (x3 : Vec F S1024x2048 .f32) (xs0 : Vec F S1024x2048 .f32) :
    sout0_C_0 c i a3 h3 a4 h4 a5 h5 a6 h6 a7 h7 a8 h8 hc0 hc1 x0 x1 x2 x3 xs0 = k0_pay2 xs0 x0 x1 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h8.read_unread, View.ld_unit_zero (S := S1024x2048) hz,
    View.ld_unit_zero (S := S1024x1024) hz]

/-- and writes the output block from the membrane block `x3`, the UPDATED scratch and the bias block `x2`. -/
theorem out_last (c : Dev nD) (i : grid0.Coords) (a3 : Memref sig .tc .vmem S1024x1024 .f32) (h3 : a3.IsWhole) (a4 : Memref sig .tc .vmem S1024x2048 .f32) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (a8 : Memref sig .tc .vmem S1024x2048 .f32) (h8 : a8.IsWhole) (hc0 : ¬cond0_0 i) (hc1 : cond0_1 i)
    (x0 : Vec F S1024x1024 .f32) (x1 : Vec F S1024x2048 .f32) (x2 : Vec F S1x2048 .f32) (x3 : Vec F S1024x2048 .f32) (xs0 : Vec F S1024x2048 .f32) :
    out0_C_4 c i a3 h3 a4 h4 a5 h5 a6 h6 a7 h7 a8 h8 hc0 hc1 x0 x1 x2 x3 xs0 = k0_pay3 x3 (k0_pay2 xs0 x0 x1) x2 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S1024x2048) _ hz]
  simp only [View.readAt_eq_ld, h3.read_unread, h4.read_unread, h5.read_unread, h6.read_unread, h8.read_unread,
    View.ld_unit_zero (S := S1024x2048) hz, View.ld_unit_zero (S := S1024x1024) hz, View.ld_unit_zero (S := S1x2048) hz]

end Cert.KernelIdeal.Pieces

end
-- ==== Proof.KernelPayload.lean ====
/-
  The kernel's three stored values over the extended reals, read at a block coordinate `(p, q)`.

  The zero block is `0` everywhere. The accumulation step is `acc[p, q] + Σ_k x_blk[p, k] · w_blk[k, q]`: the block
  product into a zero accumulator is the plain sum over the block's 1024 contraction indices of the operands'
  products, and the step adds it to what the scratch held. The epilogue is the threshold applied to
  `(½ · u0_blk[p, q] + acc[p, q]) + b_blk[0, q]`: the bias block is one row, broadcast over the 1024 rows, and the
  comparison's bit is turned into a number through a 32-bit signed integer, which for one bit is the unsigned reading.
-/
import proofs.«100028_j81106162418163_2_alg».proof.Proof.Gen.KernelIdeal.Skeleton
import proofs.«100028_j81106162418163_2_alg».proof.Proof.SpikeSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The zero block. -/
theorem zero_apply (y : S1024x2048.Idx) : k0_pay1 (F := Ideal) y = 0 := by
  unfold k0_pay1
  simp only [shapeCast_self]
  show Ideal.ofBits .f32 0x00000000#32 = 0
  exact Ideal.ofBits_zero_f32

/-! The block product's operand indices at output coordinate `(p, q)` and contraction index `k` are `(p, k)` and `(k, q)`. -/

theorem lhs_row (j : S1024x2048.Idx) (κ : dot_S1024x1024_S1024x2048_S1024x2048_1_0_0_1_n_n.contr.Idx) :
    (dot_S1024x1024_S1024x2048_S1024x2048_1_0_0_1_n_n.lhsIdx j κ 0).val = (j 0).val := by
  unfold DotDims.lhsIdx
  rw [dif_neg (show ¬(0 : Fin S1024x1024.rank) ∈ dot_S1024x1024_S1024x2048_S1024x2048_1_0_0_1_n_n.lhsBatch by decide),
    dif_pos (show (0 : Fin S1024x1024.rank) ∈ dot_S1024x1024_S1024x2048_S1024x2048_1_0_0_1_n_n.lhsNonContracting by decide)]
  rfl

theorem lhs_col (j : S1024x2048.Idx) (κ : dot_S1024x1024_S1024x2048_S1024x2048_1_0_0_1_n_n.contr.Idx) :
    (dot_S1024x1024_S1024x2048_S1024x2048_1_0_0_1_n_n.lhsIdx j κ 1).val = (κ ⟨0, by decide⟩).val :=
  dot_S1024x1024_S1024x2048_S1024x2048_1_0_0_1_n_n.lhsIdx_val_of_single rfl j κ

theorem rhs_row (j : S1024x2048.Idx) (κ : dot_S1024x1024_S1024x2048_S1024x2048_1_0_0_1_n_n.contr.Idx) :
    (dot_S1024x1024_S1024x2048_S1024x2048_1_0_0_1_n_n.rhsIdx j κ 0).val = (κ ⟨0, by decide⟩).val :=
  dot_S1024x1024_S1024x2048_S1024x2048_1_0_0_1_n_n.rhsIdx_val_of_single rfl j κ

theorem rhs_col (j : S1024x2048.Idx) (κ : dot_S1024x1024_S1024x2048_S1024x2048_1_0_0_1_n_n.contr.Idx) :
    (dot_S1024x1024_S1024x2048_S1024x2048_1_0_0_1_n_n.rhsIdx j κ 1).val = (j 1).val := by
  unfold DotDims.rhsIdx
  rw [dif_neg (show ¬(1 : Fin S1024x2048.rank) ∈ dot_S1024x1024_S1024x2048_S1024x2048_1_0_0_1_n_n.rhsBatch by decide),
    dif_pos (show (1 : Fin S1024x2048.rank) ∈ dot_S1024x1024_S1024x2048_S1024x2048_1_0_0_1_n_n.rhsNonContracting by decide)]
  rfl

/-- The block product into a zero accumulator, at `(p, q)`. -/
theorem product_apply (x0 : FVec Ideal S1024x1024 .f32) (x1 : FVec Ideal S1024x2048 .f32) (p : Fin 1024) (q : Fin 2048) :
    FloatOps.matmul dot_S1024x1024_S1024x2048_S1024x2048_1_0_0_1_n_n (some .fp32) x0 x1 (constant (F := Ideal) S1024x2048 .f32 0x00000000#32) (ix2 p q)
      = ∑ k : Fin 1024, x0 (ix2 p k) * x1 (ix2 k q) := by
  rw [Ideal.matmul_constant_zero_apply, ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 p q) ((contrEquiv1 dot_S1024x1024_S1024x2048_S1024x2048_1_0_0_1_n_n 1024 rfl rfl).symm k) = ix2 p k := funext fun a => Fin.ext (by
    match a with
    | ⟨0, _⟩ => exact lhs_row _ _
    | ⟨1, _⟩ => exact (lhs_col _ _).trans hk)
  have er : dot_S1024x1024_S1024x2048_S1024x2048_1_0_0_1_n_n.rhsIdx (ix2 p q) ((contrEquiv1 dot_S1024x1024_S1024x2048_S1024x2048_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The accumulation step, at `(p, q)`. -/
theorem step_apply (acc : Vec Ideal S1024x2048 .f32) (x0 : Vec Ideal S1024x1024 .f32) (x1 : Vec Ideal S1024x2048 .f32)
    (p : Fin 1024) (q : Fin 2048) :
    k0_pay2 acc x0 x1 (ix2 p q) = acc (ix2 p q) + ∑ k : Fin 1024, x0 (ix2 p k) * x1 (ix2 k q) := by
  unfold k0_pay2
  simp only [shapeCast_self]
  exact congrArg (acc (ix2 p q) + ·) (product_apply x0 x1 p q)

/-- The epilogue, at `(p, q)`. -/
theorem fire_apply (u a : Vec Ideal S1024x2048 .f32) (bb : Vec Ideal S1x2048 .f32) (p : Fin 1024) (q : Fin 2048) :
    k0_pay3 u a bb (ix2 p q)
      = Cert.Spike.fire ((Cert.Spike.leak * u (ix2 p q) + a (ix2 p q)) + bb (ix2 (0 : Fin 1) q)) := by
  unfold k0_pay3
  simp only [shapeCast_self]
  rw [sitofp_apply, extui_apply, cmpf_apply, addf_apply, addf_apply, mulf_apply, broadcast_apply, broadcast_apply,
    broadcastTo_1b_ab_apply]
  exact Cert.Spike.bit_signed_eq_unsigned _

end Cert.KernelIdeal.Payload

end
-- ==== Proof.KernelFold.lean ====
/-
  What the kernel's scratch block holds after each grid step, over the extended reals.

  The grid is 2 × 2 × 4: point `t` is output block row `t / 8`, output block column `t / 4 % 2`, reduction step
  `t % 4`. At point `t` the staged `x` block is rows `1024·(t/8) …`, columns `1024·(t%4) …` of `x`; the staged `W` block
  is rows `1024·(t%4) …`, columns `2048·(t/4%2) …` of `W`. So the step's addend to scratch entry `(p, q)` is run
  `t % 4` of the drive of neuron `2048·(t/4%2) + q` for sample `1024·(t/8) + p`, the scratch after step `j` of a run is
  `0` plus the addends of steps `0 … j`, and after the run's last step it is the whole drive.
-/
import proofs.«100028_j81106162418163_2_alg».proof.Proof.Gen.KernelIdeal.Value
import proofs.«100028_j81106162418163_2_alg».proof.Proof.KernelPieces
import proofs.«100028_j81106162418163_2_alg».proof.Proof.KernelPayload

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Each window's block index at grid point `t`, decided over the sixteen points. -/
theorem idx_facts : ∀ t : Fin cfg0.N,
    win0_0.index t (0 : Fin 2) = t.val / 8 % 2 ∧ win0_0.index t (1 : Fin 2) = t.val % 4
    ∧ win0_1.index t (0 : Fin 2) = t.val % 4 ∧ win0_1.index t (1 : Fin 2) = t.val / 4 % 2
    ∧ win0_2.index t (0 : Fin 2) = 0 ∧ win0_2.index t (1 : Fin 2) = t.val / 4 % 2
    ∧ win0_3.index t (0 : Fin 2) = t.val / 8 % 2 ∧ win0_3.index t (1 : Fin 2) = t.val / 4 % 2
    ∧ win0_4.index t (0 : Fin 2) = t.val / 8 % 2 ∧ win0_4.index t (1 : Fin 2) = t.val / 4 % 2 :=
  (by decide +kernel : ∀ t : Fin grid0.N, _)

/-- The sample of block row `p`, the neuron of block column `q`, and the contraction index of block offset `k`, at point `n`. -/
def row (n : ℕ) (p : Fin 1024) : Fin 2048 := ⟨1024 * (n / 8 % 2) + p.val, by have := p.isLt; omega⟩
def col (n : ℕ) (q : Fin 2048) : Fin 4096 := ⟨2048 * (n / 4 % 2) + q.val, by have := q.isLt; omega⟩
def mid (n : ℕ) (k : Fin 1024) : Fin 4096 := ⟨1024 * (n % 4) + k.val, by have := k.isLt; omega⟩

/-- The staged `x` block at point `t`, read at `(p, k)`. -/
theorem x_block (c : Dev nD) (t : Fin cfg0.N) (p k : Fin 1024) :
    (iblk m c 0 t : Vec Ideal S1024x1024 .f32) (ix2 p k)
      = m ((c : Thread nD τ).loc main_arg0) (ix2 (row t.val p) (mid t.val k)) := by
  obtain ⟨e0, e1, -⟩ := idx_facts t
  rw [← V_main_arg0 m c]
  unfold iblk
  rw [View.read_apply]
  show V m c main_arg0 _ = V m c main_arg0 _
  refine congrArg (V m c main_arg0) (funext fun a => Fin.ext ?_)
  match a with
  | ⟨0, _⟩ => show win0_0.index t (0 : Fin 2) * 1024 + 1 * p.val = 1024 * (t.val / 8 % 2) + p.val; rw [e0]; omega
  | ⟨1, _⟩ => show win0_0.index t (1 : Fin 2) * 1024 + 1 * k.val = 1024 * (t.val % 4) + k.val; rw [e1]; omega

/-- The staged `W` block at point `t`, read at `(k, q)`. -/
theorem w_block (c : Dev nD) (t : Fin cfg0.N) (k : Fin 1024) (q : Fin 2048) :
    (iblk m c 1 t : Vec Ideal S1024x2048 .f32) (ix2 k q)
      = m ((c : Thread nD τ).loc main_arg1) (ix2 (mid t.val k) (col t.val q)) := by
  obtain ⟨-, -, e0, e1, -⟩ := idx_facts t
  rw [← V_main_arg1 m c]
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * k.val = 1024 * (t.val % 4) + k.val; rw [e0]; omega
  | ⟨1, _⟩ => show win0_1.index t (1 : Fin 2) * 2048 + 1 * q.val = 2048 * (t.val / 4 % 2) + q.val; rw [e1]; omega

/-- The arguments `x` and `W` on core `c`, as arrays of extended reals. -/
abbrev argX (c : Dev nD) : S2048x4096.Idx → EReal := m ((c : Thread nD τ).loc main_arg0)
abbrev argW (c : Dev nD) : S4096x4096.Idx → EReal := m ((c : Thread nD τ).loc main_arg1)

/-- Point `n`'s addend to scratch entry `y`: one run of 1024 products. -/
def addend (c : Dev nD) (n : ℕ) (y : S1024x2048.Idx) : EReal :=
  ∑ k : Fin 1024, argX m c (ix2 (row n (y 0)) (mid n k))
    * argW m c (ix2 (mid n k) (col n (y 1)))

/-- The accumulation step at point `t` adds the point's addend. -/
theorem step_value (c : Dev nD) (t : Fin cfg0.N) (acc : Vec Ideal S1024x2048 .f32) (y : S1024x2048.Idx) :
    k0_pay2 acc (iblk m c 0 t) (iblk m c 1 t) y = acc y + addend m c t.val y := by
  obtain ⟨p, q, rfl⟩ : ∃ (p : Fin 1024) (q : Fin 2048), y = ix2 p q := ⟨y 0, y 1, eq_ix2 y⟩
  refine (Payload.step_apply acc (iblk m c 0 t) (iblk m c 1 t) p q).trans ?_
  refine congrArg (acc (ix2 p q) + ·) (Finset.sum_congr rfl fun k _ => ?_)
  rw [x_block m c t p k, w_block m c t k q]

/-- At a run's first point the scratch ends at `0` plus the addend, whatever it held. -/
theorem first_value (c : Dev nD) (n : ℕ) (hb : n < cfg0.N) (h0 : n % 4 = 0) (acc : Vec Ideal S1024x2048 .f32)
    (y : S1024x2048.Idx) : Value.scAt0_0 m c n hb acc y = 0 + addend m c n y := by
  have h1 : ¬n % 4 = 3 := by omega
  unfold Value.scAt0_0
  rw [dif_pos h0, dif_neg h1,
    show sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
        = k0_pay2 (k0_pay1 (F := Ideal)) (iblk m c 0 (⟨n, hb⟩ : Fin cfg0.N)) (iblk m c 1 (⟨n, hb⟩ : Fin cfg0.N)) from
      Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))]
  refine (step_value m c (⟨n, hb⟩ : Fin cfg0.N) _ y).trans ?_
  rw [Payload.zero_apply]

/-- At every other point it ends at what it held plus the addend. -/
theorem later_value (c : Dev nD) (n : ℕ) (hb : n < cfg0.N) (h0 : ¬n % 4 = 0) (acc : Vec Ideal S1024x2048 .f32)
    (y : S1024x2048.Idx) : Value.scAt0_0 m c n hb acc y = acc y + addend m c n y := by
  unfold Value.scAt0_0
  rw [dif_neg h0]
  by_cases h1 : n % 4 = 3
  · rw [dif_pos h1,
      show sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
          = k0_pay2 acc (iblk m c 0 (⟨n, hb⟩ : Fin cfg0.N)) (iblk m c 1 (⟨n, hb⟩ : Fin cfg0.N)) from
        Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc]
    exact step_value m c (⟨n, hb⟩ : Fin cfg0.N) acc y
  · rw [dif_neg h1,
      show sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
          = k0_pay2 acc (iblk m c 0 (⟨n, hb⟩ : Fin cfg0.N)) (iblk m c 1 (⟨n, hb⟩ : Fin cfg0.N)) from
        Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc]
    exact step_value m c (⟨n, hb⟩ : Fin cfg0.N) acc y

/-- The scratch after point `t`: `0` plus the addends of its run's points up to `t`. -/
theorem scratch_value (c : Dev nD) (t : Fin cfg0.N) (y : S1024x2048.Idx) :
    (outsAt0 m c t.val t.isLt).2 y
      = 0 + ∑ s ∈ Finset.range (t.val % 4 + 1), addend m c (4 * (t.val / 4) + s) y := by
  rw [Value.soutsAt0_0_eq m c t]
  exact Pipeline.accAt_add_apply (fun n h => Value.scAt0_0 m c n h (VS0_0.read (Elt Ideal) VS0_0.junk)) (Value.scAt0_0 m c)
    (fun _ => 0) (addend m c) (4 * (t.val / 4)) 3
    (fun h y => first_value m c _ h (by omega) _ y)
    (fun n h acc y hlt hle => later_value m c n h (by omega) acc y)
    (t.val % 4) (by omega) _ y

/-- After a run's last step the scratch entry `(p, q)` is the whole drive of its neuron for its sample. -/
theorem drive_value (c : Dev nD) (t : Fin cfg0.N) (h3 : t.val % 4 = 3) (p : Fin 1024) (q : Fin 2048) :
    (outsAt0 m c t.val t.isLt).2 (ix2 p q)
      = Cert.Spike.drive (m ((c : Thread nD τ).loc main_arg0)) (m ((c : Thread nD τ).loc main_arg1)) (row t.val p) (col t.val q) := by
  rw [scratch_value, h3, zero_add, Cert.Spike.drive_runs]
  refine Finset.sum_congr rfl fun s hs => ?_
  have hs4 : s < 4 := Finset.mem_range.mp hs
  unfold addend
  refine Finset.sum_congr rfl fun k _ => ?_
  have hk : k.val < 1024 := k.isLt
  have er : row (4 * (t.val / 4) + s) p = row t.val p := Fin.ext (by show 1024 * ((4 * (t.val / 4) + s) / 8 % 2) + p.val = 1024 * (t.val / 8 % 2) + p.val; omega)
  have ec : col (4 * (t.val / 4) + s) q = col t.val q := Fin.ext (by show 2048 * ((4 * (t.val / 4) + s) / 4 % 2) + q.val = 2048 * (t.val / 4 % 2) + q.val; omega)
  have em : mid (4 * (t.val / 4) + s) k = ⟨1024 * s + k.val, by omega⟩ := Fin.ext (by show 1024 * ((4 * (t.val / 4) + s) % 4) + k.val = 1024 * s + k.val; omega)
  show argX m c (ix2 (row (4 * (t.val / 4) + s) p) (mid (4 * (t.val / 4) + s) k))
    * argW m c (ix2 (mid (4 * (t.val / 4) + s) k) (col (4 * (t.val / 4) + s) q)) = _
  rw [er, ec, em]
  unfold Cert.Spike.term
  rw [dif_pos (by omega)]

end Cert.KernelIdeal.Fold

end
-- ==== Proof.KernelBlocks.lean ====
/-
  From the written blocks to the output array.

  The output block of block row `t / 8` and block column `t / 4 % 2` is written back once, after the last step
  `t % 4 = 3` of its reduction run. What is written at entry `(p, q)` is the threshold applied to
  `(½ · u0_blk[p, q] + scratch[p, q]) + b_blk[0, q]`, where the scratch holds the whole drive, the membrane block is
  the matching block of `u0` and the bias block is columns `2048·(t/4%2) …` of the bias row: the layer's output at
  sample `1024·(t/8) + p`, neuron `2048·(t/4%2) + q`. The four written blocks tile the 2048 × 4096 array, so the array
  ends holding the layer's output everywhere.
-/
import proofs.«100028_j81106162418163_2_alg».proof.Proof.KernelFold
import Idealize.ShloMosaic.Lib.StableHlo.Run

noncomputable section

namespace Cert.KernelIdeal.Blocks

open Cert.KernelIdeal Cert.KernelIdeal.Gen Cert.KernelIdeal.Fold Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The staged membrane block at point `t`, read at `(p, q)`. -/
theorem u_block (c : Dev nD) (t : Fin cfg0.N) (p : Fin 1024) (q : Fin 2048) :
    (iblk m c 3 t : Vec Ideal S1024x2048 .f32) (ix2 p q)
      = m ((c : Thread nD τ).loc main_arg3) (ix2 (row t.val p) (col t.val q)) := by
  obtain ⟨-, -, -, -, -, -, e0, e1, -⟩ := idx_facts t
  rw [← V_main_arg3 m c]
  unfold iblk
  rw [View.read_apply]
  show V m c main_arg3 _ = V m c main_arg3 _
  refine congrArg (V m c main_arg3) (funext fun a => Fin.ext ?_)
  match a with
  | ⟨0, _⟩ => show win0_3.index t (0 : Fin 2) * 1024 + 1 * p.val = 1024 * (t.val / 8 % 2) + p.val; rw [e0]; omega
  | ⟨1, _⟩ => show win0_3.index t (1 : Fin 2) * 2048 + 1 * q.val = 2048 * (t.val / 4 % 2) + q.val; rw [e1]; omega

/-- The bias as the region finds it: the vector recast as one row. -/
theorem bias_row (c : Dev nD) :
    (V m c main_v0 : S1x4096.Idx → EReal)
      = shapeCast S1x4096 (m ((c : Thread nD τ).loc main_arg2)) shapeCasts_S4096_S1x4096 := by
  dsimp only [Gen.V, Gen.hostOps0]; after_results; rfl

/-- The staged bias block at point `t`, read at `(0, q)`. -/
theorem b_block (c : Dev nD) (t : Fin cfg0.N) (q : Fin 2048) :
    (iblk m c 2 t : Vec Ideal S1x2048 .f32) (ix2 (0 : Fin 1) q)
      = m ((c : Thread nD τ).loc main_arg2) (ix1 (col t.val q)) := by
  obtain ⟨-, -, -, -, e0, e1, -⟩ := idx_facts t
  unfold iblk
  rw [View.read_apply]
  show V m c main_v0 _ = _
  refine (congrArg (V m c main_v0) (?_ : _ = (ix2 (0 : Fin 1) (col t.val q) : S1x4096.Idx))).trans ?_
  · funext a
    apply Fin.ext
    match a with
    | ⟨0, _⟩ => show win0_2.index t (0 : Fin 2) * 1 + 1 * 0 = 0; rw [e0]
    | ⟨1, _⟩ => show win0_2.index t (1 : Fin 2) * 2048 + 1 * q.val = 2048 * (t.val / 4 % 2) + q.val; rw [e1]; omega
  · rw [bias_row m c]
    exact shapeCast_a_1a_apply _ _ (0 : Fin 1) (col t.val q)

/-- The layer's output on core `c`, as contents of the result array. -/
abbrev result (c : Dev nD) : Buf (Elt Ideal) ((c : Thread nD τ).loc main_v1) :=
  Cert.Spike.spike (m ((c : Thread nD τ).loc main_arg0)) (m ((c : Thread nD τ).loc main_arg1))
    (m ((c : Thread nD τ).loc main_arg2)) (m ((c : Thread nD τ).loc main_arg3))

/-- What a writing point writes back is its block of the layer's output. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have h0 : ¬t.val % 4 = 0 := by omega
  obtain ⟨-, -, -, -, -, -, -, -, e0, e1⟩ := idx_facts t
  have hs : (outsAt0 m c t.val t.isLt).2
      = k0_pay2 (outsAt0 m c (t.val - 1) (Nat.lt_of_le_of_lt (Nat.sub_le _ _) t.isLt)).2 (iblk m c 0 t) (iblk m c 1 t) := by
    rw [outsAt0_C m c t h0 h3]
    dsimp only
    exact Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t)
      (outsAt0 m c (t.val - 1) (Nat.lt_of_le_of_lt (Nat.sub_le _ _) t.isLt)).2
  rw [Value.flushed4_C m c t h0 h3,
    show out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t)
        (outsAt0 m c (t.val - 1) (Nat.lt_of_le_of_lt (Nat.sub_le _ _) t.isLt)).2
        = k0_pay3 (iblk m c 3 t) (k0_pay2 (outsAt0 m c (t.val - 1) (Nat.lt_of_le_of_lt (Nat.sub_le _ _) t.isLt)).2 (iblk m c 0 t) (iblk m c 1 t)) (iblk m c 2 t) from
      Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t)
        (outsAt0 m c (t.val - 1) (Nat.lt_of_le_of_lt (Nat.sub_le _ _) t.isLt)).2,
    ← hs]
  funext j
  obtain ⟨p, q, rfl⟩ : ∃ (p : Fin 1024) (q : Fin 2048), j = ix2 p q := ⟨j 0, j 1, eq_ix2 j⟩
  show k0_pay3 (iblk m c 3 t) (outsAt0 m c t.val t.isLt).2 (iblk m c 2 t) (ix2 p q)
    = result m c (((cfg0.win 4).blk t).view.emb (ix2 p q))
  refine (Payload.fire_apply (iblk m c 3 t) (outsAt0 m c t.val t.isLt).2 (iblk m c 2 t) p q).trans ?_
  rw [drive_value m c t h3 p q, u_block m c t p q, b_block m c t q]
  have ei : ((cfg0.win 4).blk t).view.emb (ix2 p q) = (ix2 (row t.val p) (col t.val q) : S2048x4096.Idx) := by
    funext a
    apply Fin.ext
    match a with
    | ⟨0, _⟩ => show win0_4.index t (0 : Fin 2) * 1024 + 1 * p.val = 1024 * (t.val / 8 % 2) + p.val; rw [e0]; omega
    | ⟨1, _⟩ => show win0_4.index t (1 : Fin 2) * 2048 + 1 * q.val = 2048 * (t.val / 4 % 2) + q.val; rw [e1]; omega
  rw [ei]
  rfl

/-- An index of the array is in point `t`'s output block iff each coordinate is in the block's range on its axis. -/
theorem mem_blk (t : Fin cfg0.N) (i : S2048x4096.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v1).slice (win0_4.rect t)).set ↔ _
  rw [View.set_slice_whole, Rect.mem_set_unit]
  exact Iff.rfl

/-- Every index of the array is in the block of the writing point of its block row and block column. -/
theorem cover (i : S2048x4096.Idx) :
    ∃ t : Fin cfg0.N, (cfg0.win 4).flush t = true ∧ i ∈ ((cfg0.win 4).blk t).view.set := by
  have hi0 : (i 0).val < 2048 := (i 0).isLt
  have hi1 : (i 1).val < 4096 := (i 1).isLt
  have hN : cfg0.N = 16 := N_0
  have hlt : 8 * ((i 0).val / 1024) + 4 * ((i 1).val / 2048) + 3 < cfg0.N := lt_of_lt_of_eq (by omega) hN.symm
  obtain ⟨-, -, -, -, -, -, -, -, e0, e1⟩ := idx_facts ⟨_, hlt⟩
  refine ⟨⟨_, hlt⟩, (flush0_4 _).mpr (by show (8 * ((i 0).val / 1024) + 4 * ((i 1).val / 2048) + 3) % 4 = 3; omega), ?_⟩
  rw [mem_blk]
  intro a
  match a with
  | ⟨0, _⟩ =>
    show win0_4.index ⟨_, hlt⟩ (0 : Fin 2) * 1024 ≤ (i 0).val ∧ (i 0).val < win0_4.index ⟨_, hlt⟩ (0 : Fin 2) * 1024 + 1024
    rw [e0]
    show (8 * ((i 0).val / 1024) + 4 * ((i 1).val / 2048) + 3) / 8 % 2 * 1024 ≤ (i 0).val
      ∧ (i 0).val < (8 * ((i 0).val / 1024) + 4 * ((i 1).val / 2048) + 3) / 8 % 2 * 1024 + 1024
    omega
  | ⟨1, _⟩ =>
    show win0_4.index ⟨_, hlt⟩ (1 : Fin 2) * 2048 ≤ (i 1).val ∧ (i 1).val < win0_4.index ⟨_, hlt⟩ (1 : Fin 2) * 2048 + 2048
    rw [e1]
    show (8 * ((i 0).val / 1024) + 4 * ((i 1).val / 2048) + 3) / 4 % 2 * 2048 ≤ (i 1).val
      ∧ (i 1).val < (8 * ((i 0).val / 1024) + 4 * ((i 1).val / 2048) + 3) / 4 % 2 * 2048 + 2048
    omega

/-- The result array ends holding the layer's output. -/
theorem final (c : Dev nD) : (dats m 0 c).arrAt 4 cfg0.N = result m c :=
  (dats m 0 c).arrAt_eq_of_cover 4 (result m c) (fun t hf => flushed_eq m c t hf) cover

/-- The kernel's run: the result array at the layer's output, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.lean ====
/-
  A dense layer followed by a leaky integrate-and-fire neuron, one time step: the kernel against its reference.

  Both programs compute, for sample `r` and neuron `q`, the membrane potential
  `(½ · u0[r, q] + Σ_k x[r, k] · W[k, q]) + b[q]` and emit `1` where it reaches the firing level `1`, else `0`. The
  reference does it with one 4096-term contraction; the kernel tiles the output into four 1024 × 2048 blocks and, for
  each, sums the contraction in four runs of 1024 terms into a scratch block that starts at zero, then thresholds
  after the last run. Over the extended reals addition is commutative and associative, so the four runs add up to the
  whole contraction with no assumption on the inputs; the additions around it are in the same order on both sides;
  and the kernel's route from the comparison's bit to a number (through a 32-bit signed integer) gives the same `0`
  or `1` as the reference's direct unsigned reading. The idealization rewrote nothing, so the kernel's idealized
  program is its own text read over the extended reals.
-/
import proofs.«100028_j81106162418163_2_alg».proof.Defs
import proofs.«100028_j81106162418163_2_alg».proof.Proof.Gen.Kernel
import proofs.«100028_j81106162418163_2_alg».proof.Proof.Gen.Kernel.Frame
import proofs.«100028_j81106162418163_2_alg».proof.Proof.Gen.KernelIdeal
import proofs.«100028_j81106162418163_2_alg».proof.Proof.Gen.KernelIdeal.Frame
import proofs.«100028_j81106162418163_2_alg».proof.Proof.Gen.KernelIdeal.Value
import proofs.«100028_j81106162418163_2_alg».proof.Proof.Gen.ReferenceIdeal
import proofs.«100028_j81106162418163_2_alg».proof.Proof.Gen.ReferenceIdeal.Run
import proofs.«100028_j81106162418163_2_alg».proof.Proof.Gen.ReferenceIdeal.Read
import proofs.«100028_j81106162418163_2_alg».proof.Proof.Gen.Pre_finite_inputs
import proofs.«100028_j81106162418163_2_alg».proof.Proof.RefSpike
import proofs.«100028_j81106162418163_2_alg».proof.Proof.KernelBlocks
import Idealize.ShloMosaic.Adequacy
import Idealize.ShloMosaic.Init

noncomputable section

namespace Cert.Proof

open Idealize.ShloMosaic Idealize.SL.Sem

/-- The kernel as printed runs to the end with its arguments unchanged. -/
theorem frame_kernel [Cert.Kernel.Facts] [Cert.Pre_finite_inputs.Facts] : Cert.frame_Kernel :=
  fun m ρ _ => Cert.Kernel.Gen.frame m ρ

/-- So does its reading over the extended reals. -/
theorem frame_kernel_ideal [Cert.KernelIdeal.Facts] [Cert.Pre_finite_inputs.Facts] : Cert.frame_KernelIdeal :=
  fun m ρ _ => Cert.KernelIdeal.Gen.frame m ρ

/-- The reference is a straight line of host operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From arguments that agree both programs end with the layer's output array of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1,
    (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
